-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S64x1024x1024 .f32) (main_arg1 : FVec F S64x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S64x1x1024 : Shape := ⟨3, ![64, 1, 1024]⟩
abbrev S64x1024x1 : Shape := ⟨3, ![64, 1024, 1]⟩
abbrev S1x1024x1024 : Shape := ⟨3, ![1, 1024, 1024]⟩
abbrev S1x1x1024 : Shape := ⟨3, ![1, 1, 1024]⟩
abbrev S1x1024x1 : Shape := ⟨3, ![1, 1024, 1]⟩
abbrev S1x1 : Shape := ⟨2, ![1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 30
  | .vmem => 16
  | .smem => 0
  | _ => 0

abbrev bufTy : (tb : Table) → Fin (tcTables nBuf tb) → BufTy
  | .hbm, ⟨0, _⟩ => ⟨S64x1024x1024, .f32⟩
  | .hbm, ⟨1, _⟩ => ⟨S64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S64x1024, .f32⟩
  | .hbm, ⟨9, _⟩ => ⟨S1x1024, .f32⟩
  | .hbm, ⟨10, _⟩ => ⟨S64x1024, .f32⟩
  | .hbm, ⟨11, _⟩ => ⟨S64x1024, .f32⟩
  | .hbm, ⟨12, _⟩ => ⟨S64x1x1024, .f32⟩
  | .hbm, ⟨13, _⟩ => ⟨S64x1024x1, .f32⟩
  | .hbm, ⟨14, _⟩ => ⟨S_, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1x1, .f32⟩
  | .hbm, ⟨20, _⟩ => ⟨S64x1024x1, .f32⟩
  | .hbm, ⟨21, _⟩ => ⟨S64x1024x1, .f32⟩
  | .hbm, ⟨22, _⟩ => ⟨S64x1024x1, .f32⟩
  | .hbm, ⟨23, _⟩ => ⟨S_, .f32⟩
  | .hbm, ⟨24, _⟩ => ⟨S64x1, .f32⟩
  | .hbm, ⟨25, _⟩ => ⟨S64x1x1, .f32⟩
  | .hbm, ⟨26, _⟩ => ⟨S64x1024x1, .f32⟩
  | .hbm, ⟨27, _⟩ => ⟨S64x1024x1, .f32⟩
  | .hbm, ⟨28, _⟩ => ⟨S64x1x1024, .f32⟩
  | .hbm, ⟨29, _⟩ => ⟨S64x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1, .f32⟩
  | .local _ .vmem, ⟨7, _⟩ => ⟨S1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1, .f32⟩
  | .local _ .vmem, ⟨13, _⟩ => ⟨S1x1024x1, .f32⟩
  | .local _ .vmem, ⟨14, _⟩ => ⟨S1x1x1024, .f32⟩
  | .local _ .vmem, ⟨15, _⟩ => ⟨S1x1x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  shapeCasts_S64x1024_S64x1x1024 : S64x1024.ShapeCasts S64x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  reduces_S1024x1024_S1024 : S1024x1024.Reduces [1] S1024
  shapeCasts_S1024_S1024x1 : S1024.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  broadcasts_S1024x1_S1024x1024 : S1024x1.Broadcasts S1024x1024
  reduces_S1024x1024_S1024_2 : S1024x1024.Reduces [0] S1024
  shapeCasts_S1x1024_S1x1x1024 : S1x1024.ShapeCasts S1x1x1024
  shapeCasts_S64x1x1024_S64x1024 : S64x1x1024.ShapeCasts S64x1024
  dot_S64x1024_S1024x1024_S64x1024_1_0_0_1_n_n_wf : DotDims.WF S64x1024 S1024x1024 S64x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S64x1x1024.size a
  hwx0_3 : ∀ i : grid0.Coords, EltTy.bits .f32 = 32 ∨ (Rect.block (s := S64x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S64x1024x1.size a
  hwx0_6 : ∀ i : grid0.Coords, EltTy.bits .f32 = 32 ∨ (Rect.block (s := S64x1024x1) S1x1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S64x1024x1024.size a
  hwx1_0 : ∀ i : grid1.Coords, EltTy.bits .f32 = 32 ∨ (Rect.block (s := S64x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S64x1024x1.size a
  hwx1_1 : ∀ i : grid1.Coords, EltTy.bits .f32 = 32 ∨ (Rect.block (s := S64x1024x1) S1x1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S64x1x1024.size a
  hwx1_2 : ∀ i : grid1.Coords, EltTy.bits .f32 = 32 ∨ (Rect.block (s := S64x1x1024) S1x1x1024.size (cc1_transform_2 i) (hinb1_2 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x1024x1024 : Shape := ⟨3, ![64, 1024, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S64x1x1024 : Shape := ⟨3, ![64, 1, 1024]⟩
abbrev S64x1024x1 : Shape := ⟨3, ![64, 1024, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S64x1024x1024, .f32⟩
  | .hbm, ⟨9, _⟩ => ⟨S1x1x1024, .f32⟩
  | .hbm, ⟨10, _⟩ => ⟨S64x1024x1024, .f32⟩
  | .hbm, ⟨11, _⟩ => ⟨S64x1024x1024, .f32⟩
  | .hbm, ⟨12, _⟩ => ⟨S64x1024, .f32⟩
  | .hbm, ⟨13, _⟩ => ⟨S1x1024, .f32⟩
  | .hbm, ⟨14, _⟩ => ⟨S64x1024, .f32⟩
  | .hbm, ⟨15, _⟩ => ⟨S64x1024, .f32⟩
  | .hbm, ⟨16, _⟩ => ⟨S64x1x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1, .f32⟩
  | .hbm, ⟨21, _⟩ => ⟨S1x1x1, .f32⟩
  | .hbm, ⟨22, _⟩ => ⟨S64x1024x1, .f32⟩
  | .hbm, ⟨23, _⟩ => ⟨S64x1024x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x1024x1, .f32⟩
  | .hbm, ⟨31, _⟩ => ⟨S64x1024x1, .f32⟩
  | .hbm, ⟨32, _⟩ => ⟨S64x1024x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x1024x1, .f32⟩
  | .hbm, ⟨37, _⟩ => ⟨S64x1024x1, .f32⟩
  | .hbm, ⟨38, _⟩ => ⟨S64x1024x1024, .f32⟩
  | .hbm, ⟨39, _⟩ => ⟨S64x1024x1024, .f32⟩
  | .hbm, ⟨40, _⟩ => ⟨S_, .f32⟩
  | .hbm, ⟨41, _⟩ => ⟨S64x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  bcast_S64x1024x1_S64x1024x1024_0_1_2 : S64x1024x1.BroadcastsInDim S64x1024x1024 (![0, 1, 2] : Fin 3 → Fin S64x1024x1024.rank)
  reducesTo_S64x1024x1024_S64x1024_d1 : S64x1024x1024.ReducesTo [1] S64x1024
  dot_S64x1024x1024_S1024x1024_S64x1024x1024_2_0_01_1_n_n_wf : DotDims.WF S64x1024x1024 S1024x1024 S64x1024x1024 [2] [0] [0, 1] [1] [] []
  dot_S64x1024_S1024x1024_S64x1024_1_0_0_1_n_n_wf : DotDims.WF S64x1024 S1024x1024 S64x1024 [1] [0] [0] [1] [] []
  dot_S64x1024x1024_S1024x1_S64x1024x1_2_0_01_1_n_n_wf : DotDims.WF S64x1024x1024 S1024x1 S64x1024x1 [2] [0] [0, 1] [1] [] []

variable [Facts₀]

def dot_S64x1024x1024_S1024x1024_S64x1024x1024_2_0_01_1_n_n : DotDims S64x1024x1024 S1024x1024 S64x1024x1024 where
  lhsContracting := [2]
  rhsContracting := [0]
  lhsNonContracting := [0, 1]
  rhsNonContracting := [1]
  lhsBatch := []
  rhsBatch := []
  wf := dot_S64x1024x1024_S1024x1024_S64x1024x1024_2_0_01_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024x1024_S1024x1_S64x1024x1_2_0_01_1_n_n : DotDims S64x1024x1024 S1024x1 S64x1024x1 where
  lhsContracting := [2]
  rhsContracting := [0]
  lhsNonContracting := [0, 1]
  rhsNonContracting := [1]
  lhsBatch := []
  rhsBatch := []
  wf := dot_S64x1024x1024_S1024x1_S64x1024x1_2_0_01_1_n_n_wf

class Facts : Prop extends Facts₀ where

variable [Facts]
-- ==== Proof.Spec.lean ====
/-
  The mathematics both programs compute, over the extended reals, index by index.

  Additive attention over a batch of 64 sequences of 1024 feature rows of width 1024:
    logit (b, s) = ( Σ_u tanh( (Σ_f x[b,s,f] · W1[f,u]) + b1[u] + h[b,u] ) · v[u] ) + c,
    a = softmax of the logits along s, separately for each b,
    context (b, f) = Σ_s x[b,s,f] · a[b,s].
  Here the logit, the context (in its two layouts, with and without a middle unit axis) and the softmax chain are named
  once, so that each program's result is stated as the same term.
-/
import Idealize.ShloMosaic.PureOps.Ideal
import Idealize.ShloMosaic.Lib.ValueIdx

noncomputable section

namespace Cert.Attention

open Idealize.ShloMosaic Idealize.ShloMosaic.ValueIdx

/-- The logit of row `s` of sequence `b`: the tanh of the projected features plus the two biases, weighted by `v` and summed
    over the hidden units, plus the output bias. The projected hidden state `h` carries a middle unit axis. -/
def logitAt (x : FVec Ideal ⟨3, ![64, 1024, 1024]⟩ .f32) (W1 : FVec Ideal ⟨2, ![1024, 1024]⟩ .f32)
    (b1 : FVec Ideal ⟨1, ![1024]⟩ .f32) (h : FVec Ideal ⟨3, ![64, 1, 1024]⟩ .f32) (v : FVec Ideal ⟨2, ![1024, 1]⟩ .f32)
    (c : FVec Ideal ⟨1, ![1]⟩ .f32) (b : Fin 64) (s : Fin 1024) : EReal :=
  (∑ u : Fin 1024, Ideal.tanh (((∑ f : Fin 1024, x (ix3 b s f) * W1 (ix2 f u)) + b1 (ix1 u)) + h (ix3 b (0 : Fin 1) u))
      * v (ix2 u (0 : Fin 1))) + c (ix1 (0 : Fin 1))

/-- The array of logits, with its trailing unit axis. -/
def logits (x : FVec Ideal ⟨3, ![64, 1024, 1024]⟩ .f32) (W1 : FVec Ideal ⟨2, ![1024, 1024]⟩ .f32)
    (b1 : FVec Ideal ⟨1, ![1024]⟩ .f32) (h : FVec Ideal ⟨3, ![64, 1, 1024]⟩ .f32) (v : FVec Ideal ⟨2, ![1024, 1]⟩ .f32)
    (c : FVec Ideal ⟨1, ![1]⟩ .f32) : FVec Ideal ⟨3, ![64, 1024, 1]⟩ .f32 :=
  fun i => logitAt x W1 b1 h v c (i 0) (i 1)

theorem logits_ix3 (x : FVec Ideal ⟨3, ![64, 1024, 1024]⟩ .f32) (W1 : FVec Ideal ⟨2, ![1024, 1024]⟩ .f32)
    (b1 : FVec Ideal ⟨1, ![1024]⟩ .f32) (h : FVec Ideal ⟨3, ![64, 1, 1024]⟩ .f32) (v : FVec Ideal ⟨2, ![1024, 1]⟩ .f32)
    (c : FVec Ideal ⟨1, ![1]⟩ .f32) (b : Fin 64) (s : Fin 1024) (z : Fin 1) :
    logits x W1 b1 h v c (ix3 b s z) = logitAt x W1 b1 h v c b s := rfl

/-- The context of sequence `b` at feature `f`: the feature rows weighted by the attention weights and summed over the rows. -/
def contextAt (x : FVec Ideal ⟨3, ![64, 1024, 1024]⟩ .f32) (a : FVec Ideal ⟨3, ![64, 1024, 1]⟩ .f32) (b : Fin 64) (f : Fin 1024) :
    EReal :=
  ∑ s : Fin 1024, x (ix3 b s f) * a (ix3 b s (0 : Fin 1))

/-- The context with a middle unit axis (one row per sequence). -/
def contextRows (x : FVec Ideal ⟨3, ![64, 1024, 1024]⟩ .f32) (a : FVec Ideal ⟨3, ![64, 1024, 1]⟩ .f32) :
    FVec Ideal ⟨3, ![64, 1, 1024]⟩ .f32 :=
  fun i => contextAt x a (i 0) (i 2)

theorem contextRows_ix3 (x : FVec Ideal ⟨3, ![64, 1024, 1024]⟩ .f32) (a : FVec Ideal ⟨3, ![64, 1024, 1]⟩ .f32)
    (b : Fin 64) (z : Fin 1) (f : Fin 1024) : contextRows x a (ix3 b z f) = contextAt x a b f := rfl

/-- The context as a matrix. -/
def context (x : FVec Ideal ⟨3, ![64, 1024, 1024]⟩ .f32) (a : FVec Ideal ⟨3, ![64, 1024, 1]⟩ .f32) :
    FVec Ideal ⟨2, ![64, 1024]⟩ .f32 :=
  fun i => contextAt x a (i 0) (i 1)

theorem context_ix2 (x : FVec Ideal ⟨3, ![64, 1024, 1024]⟩ .f32) (a : FVec Ideal ⟨3, ![64, 1024, 1]⟩ .f32)
    (b : Fin 64) (f : Fin 1024) : context x a (ix2 b f) = contextAt x a b f := rfl

/-- The softmax along the rows of each sequence, as the chain of array operations both programs apply to their logits:
    subtract the row maximum (taken from -∞), exponentiate, divide by the sum (taken from 0). The shape facts are
    parameters; any proofs of them give the same function. -/
def softmaxRows
    (hred : (⟨3, ![64, 1024, 1]⟩ : Shape).ReducesTo [1] ⟨2, ![64, 1]⟩) (h0 : 0 < (⟨0, ![]⟩ : Shape).numel)
    (hb0 : (⟨0, ![]⟩ : Shape).BroadcastsInDim ⟨2, ![64, 1]⟩ (![] : Fin 0 → Fin 2))
    (hb1 : (⟨2, ![64, 1]⟩ : Shape).BroadcastsInDim ⟨3, ![64, 1, 1]⟩ (![0, 2] : Fin 2 → Fin 3))
    (hb2 : (⟨3, ![64, 1, 1]⟩ : Shape).BroadcastsInDim ⟨3, ![64, 1024, 1]⟩ (![0, 1, 2] : Fin 3 → Fin 3))
    (y : FVec Ideal ⟨3, ![64, 1024, 1]⟩ .f32) : FVec Ideal ⟨3, ![64, 1024, 1]⟩ .f32 :=
  let e : FVec Ideal ⟨3, ![64, 1024, 1]⟩ .f32 :=
    Host.exp (subf y (broadcastInDim ⟨3, ![64, 1024, 1]⟩ ![0, 1, 2] hb2 (broadcastInDim ⟨3, ![64, 1, 1]⟩ ![0, 2] hb1
      (maximumf (broadcastInDim ⟨2, ![64, 1]⟩ ![] hb0 (constant (F := Ideal) ⟨0, ![]⟩ .f32 0xFF800000#32))
        (Host.reduce FloatOps.maximumf y (constant (F := Ideal) ⟨0, ![]⟩ .f32 0xFF800000#32) hred h0)))))
  Host.divf e (broadcastInDim ⟨3, ![64, 1024, 1]⟩ ![0, 1, 2] hb2 (broadcastInDim ⟨3, ![64, 1, 1]⟩ ![0, 2] hb1
    (Host.reduceAdd e (constant (F := Ideal) ⟨0, ![]⟩ .f32 0x00000000#32) hred h0)))

end Cert.Attention

end
-- ==== Proof.KernelRun.lean ====
/-
  The idealized kernel program's run with its two results named.

  The program is five segments: a stretch of host operations (the hidden state's projection), the first grid of kernel
  launches (the logits), a second stretch (the softmax), the second grid (the context), and a last reshape. The buffer
  contents at each boundary are a fold from the launch memory; after the last segment every buffer that outlives the
  kernels holds what that fold says. So every execution ends with the context buffer and the attention-weight buffer at
  the fold's value there, and with the arguments as launched.
-/
import proofs.«173991_j28879360098342_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the context buffer and the attention-weight buffer end at the
    last boundary's contents, and the arguments end as launched. -/
theorem run : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v18 (by decide)),
       h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Results

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LibInnerUnitAxis.lean ====
/-
  Casts that drop a unit axis which is not the leading one, read at an index given by its coordinates: a one-column
  matrix `[a, 1]` cast to the vector `[a]`, and a stack `[a, 1, b]` cast to the matrix `[a, b]`. In both the row-major position
  is unchanged because the dropped axis contributes a factor one and a coordinate zero.
-/
import Idealize.ShloMosaic.Lib.Pipeline.Value
import Idealize.ShloMosaic.Lib.ValueIdx

noncomputable section

namespace Idealize.ShloMosaic.InnerUnitAxis

open Idealize.ShloMosaic Idealize.ShloMosaic.ValueIdx

variable {α : Type}

/-- An `[a, 1]` column cast to an `[a]` vector reads, at `i`, the column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, b]` stack cast to an `[a, b]` matrix reads, at `(i, j)`, the stack at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.InnerUnitAxis

end
-- ==== Proof.LogitsBlock.lean ====
/-
  What one launch of the first kernel stores, read at an index.

  The body takes one sequence's feature block x0 [1,1024,1024], the weights x1 [1024,1024], the bias x2 [1024], that
  sequence's projected hidden row x3 [1,1,1024], the output weights x4 [1024,1] and the output bias x5 [1], and stores a
  [1,1024,1] block. At row s the stored value is
    ( Σ_u tanh( (Σ_f x0[0,s,f] · x1[f,u]) + x2[u] + x3[0,0,u] ) · x4[u,0] ) + x5[0]:
  the matrix product into a zero accumulator is the plain sum over the contracted axis, the change of float format is the
  identity, each broadcast and cast only renames the index, and the reduction along the hidden axis is the sum over it.
-/
import proofs.«173991_j28879360098342_1_alg».proof.Proof.Gen.KernelIdeal.Skeleton
import proofs.«173991_j28879360098342_1_alg».proof.Proof.LibColumnLayout
import proofs.«173991_j28879360098342_1_alg».proof.Proof.LibInnerUnitAxis
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LogitsBlock

open Cert.KernelIdeal Cert.KernelIdeal.Gen
open Idealize.ShloMosaic Idealize.ShloMosaic.TcCoe Idealize.ShloMosaic.ValueIdx
open Idealize.ShloMosaic.ColumnLayout Idealize.ShloMosaic.InnerUnitAxis

/-! ## The matrix product of two [1024, 1024] blocks at an index -/

abbrev D := dot_S1024x1024_S1024x1024_S1024x1024_1_0_0_1_n_n

theorem lhs_0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_1 (i : S1024x1024.Idx) (q : D.contr.Idx) : (D.lhsIdx i q 1).val = (q ⟨0, by decide⟩).val :=
  D.lhsIdx_val_of_single rfl i q
theorem rhs_0 (i : S1024x1024.Idx) (q : D.contr.Idx) : (D.rhsIdx i q 0).val = (q ⟨0, by decide⟩).val :=
  D.rhsIdx_val_of_single rfl i q
theorem rhs_1 (i : S1024x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- Into the zero accumulator the product at (s, u) is the sum over f of left (s, f) times right (f, u). -/
theorem product_apply (l r : FVec Ideal S1024x1024 .bf16) (s u : Fin 1024) :
    matmul D none l r (constant S1024x1024 .f32 0x00000000#32) (ix2 s u) = ∑ f : Fin 1024, l (ix2 s f) * r (ix2 f u) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 s u) ((contrEquiv1 D 1024 rfl rfl).symm k) = ix2 s k := funext fun a => Fin.ext (by
    match a with
    | ⟨0, _⟩ => exact lhs_0 _ _
    | ⟨1, _⟩ => exact (lhs_1 _ _).trans hk)
  have er : D.rhsIdx (ix2 s u) ((contrEquiv1 D 1024 rfl rfl).symm k) = ix2 k u := funext fun a => Fin.ext (by
    match a with
    | ⟨0, _⟩ => exact (rhs_0 _ _).trans hk
    | ⟨1, _⟩ => exact rhs_1 _ _)
  rw [el, er]

/-! ## The sum along the hidden axis at an index -/

/-- The reduction of a [1024, 1024] block along its second axis, from the zero word, at row s: the sum over the columns. -/
theorem rowSum_apply (v : FVec Ideal S1024x1024 .f32) (hφ : FKind.Formats .f32)
    (hacc : (0x00000000#32 : BitVec 32) = 0x00000000#32) (s : Fin 1024) :
    multiReduction .add [1] S1024 v 0x00000000#32 reduces_S1024x1024_S1024 hφ hacc (ix1 s) = ∑ u : Fin 1024, v (ix2 s u) := by
  refine (Ideal.multiReduction_add_single v 0x00000000#32 reduces_S1024x1024_S1024 hφ hacc (ix1 s)).trans ?_
  refine Finset.sum_congr rfl fun u _ => congrArg v ?_
  exact funext fun a => Fin.ext (by match a with | ⟨0, _⟩ => rfl | ⟨1, _⟩ => rfl)

/-! ## The stored block at an index -/

/-- The hyperbolic tangent of a vector, read at an index. -/
theorem tanh_apply {s : Shape} {φ : FTy} (v : FVec Ideal s φ) (i : s.Idx) : tanh v i = Ideal.tanh (v i) := rfl

theorem stored_apply (x0 : Vec Ideal S1x1024x1024 .f32) (x1 : Vec Ideal S1024x1024 .f32) (x2 : Vec Ideal S1024 .f32)
    (x3 : Vec Ideal S1x1x1024 .f32) (x4 : Vec Ideal S1024x1 .f32) (x5 : Vec Ideal S1 .f32) (z0 : Fin 1) (s : Fin 1024) (z2 : Fin 1) :
    k0_pay1 x0 x1 x2 x3 x4 x5 (ix3 z0 s z2)
      = (∑ u : Fin 1024, Ideal.tanh (((∑ f : Fin 1024, x0 (ix3 (0 : Fin 1) s f) * x1 (ix2 f u)) + x2 (ix1 u)) + x3 (ix3 (0 : Fin 1) (0 : Fin 1) u))
          * x4 (ix2 u (0 : Fin 1))) + x5 (ix1 (0 : Fin 1)) := by
  obtain rfl : z2 = 0 := Subsingleton.elim _ _
  unfold k0_pay1
  dsimp only
  rw [shapeCast_ab_1ab_apply, addf_apply, shapeCast_a_a1_apply, broadcastTo_1b_ab_apply, shapeCast_a_1a_apply]
  refine congrArg (· + x5 (ix1 (0 : Fin 1))) ((rowSum_apply _ _ _ s).trans (Finset.sum_congr rfl fun u _ => ?_))
  rw [mulf_apply]
  rw [tanh_apply, addf_apply, addf_apply, product_apply, broadcastTo_1b_ab_apply, shapeCast_a_1a_apply, broadcastTo_1b_ab_apply,
    shapeCast_1ab_ab_apply, broadcastTo_1b_ab_apply, shapeCast_a_1a_apply, shapeCast_a1_a_apply]
  simp only [truncf_apply, shapeCast_1ab_ab_apply]

end Cert.KernelIdeal.LogitsBlock

end
-- ==== Proof.LogitsArray.lean ====
/-
  The logits array after the first grid of launches, for any buffer contents `V` the grid is entered with.

  Launch t (one per sequence, 64 in all) reads block t of the features and of the projected hidden rows, the whole of the
  weights and biases, and writes block t of the output array: rows [t, 0..1023, 0]. What it writes is the specification's
  logit of sequence t at each row (the stored block read at an index, with each block element found in its array at block
  index times block size plus the inner coordinate). The 64 blocks tile the output array, so after the grid the array is
  the specification's logits of the arrays as entered.
-/
import proofs.«173991_j28879360098342_1_alg».proof.Proof.Gen.KernelIdeal.Frame
import proofs.«173991_j28879360098342_1_alg».proof.Proof.Spec
import proofs.«173991_j28879360098342_1_alg».proof.Proof.LogitsBlock
import Idealize.ShloMosaic.Lib.Pipeline.Value
import Idealize.ShloMosaic.Lib.ValueIdx

noncomputable section

namespace Cert.KernelIdeal.LogitsArray

open Cert.KernelIdeal Cert.KernelIdeal.Gen Cert.Attention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block index of every window at every launch, decided over the 64 launches: the feature, hidden-row and output
    windows move with the launch along the first axis; the others stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-! ## Each input block read in its array -/

theorem features_read (c : Dev nD) (t : Fin cfg0.N) (b : Fin 64) (hb : b.val = t.val) (s f : Fin 1024) :
    (iblk0 V c 0 t : Vec Ideal S1x1024x1024 .f32) (ix3 (0 : Fin 1) s f)
      = (V c main_arg0 : S64x1024x1024.Idx → Elt Ideal .f32) (ix3 b s f) := by
  obtain ⟨e0, e1, e2, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * 0 = b.val; rw [e0, hb]; omega
  | ⟨1, _⟩ => show win0_0.index t (1 : Fin 3) * 1024 + 1 * s.val = s.val; rw [e1]; omega
  | ⟨2, _⟩ => show win0_0.index t (2 : Fin 3) * 1024 + 1 * f.val = f.val; rw [e2]; omega

theorem weights_read (c : Dev nD) (t : Fin cfg0.N) (f u : Fin 1024) :
    (iblk0 V c 1 t : Vec Ideal S1024x1024 .f32) (ix2 f u) = (V c main_arg2 : S1024x1024.Idx → Elt Ideal .f32) (ix2 f u) := by
  obtain ⟨-, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 1024 + 1 * f.val = f.val; rw [e0]; omega
  | ⟨1, _⟩ => show win0_1.index t (1 : Fin 2) * 1024 + 1 * u.val = u.val; rw [e1]; omega

theorem bias_read (c : Dev nD) (t : Fin cfg0.N) (u : Fin 1024) :
    (iblk0 V c 2 t : Vec Ideal S1024 .f32) (ix1 u) = (V c main_arg3 : S1024.Idx → Elt Ideal .f32) (ix1 u) := by
  obtain ⟨-, -, -, -, -, e0, -⟩ := idx_facts t
  unfold iblk0
  rw [View.read_apply]
  show V c main_arg3 _ = V c main_arg3 _
  refine congrArg (V c main_arg3) (funext fun a => Fin.ext ?_)
  match a with
  | ⟨0, _⟩ => show win0_2.index t (0 : Fin 1) * 1024 + 1 * u.val = u.val; rw [e0]; omega

theorem hidden_read (c : Dev nD) (t : Fin cfg0.N) (b : Fin 64) (hb : b.val = t.val) (u : Fin 1024) :
    (iblk0 V c 3 t : Vec Ideal S1x1x1024 .f32) (ix3 (0 : Fin 1) (0 : Fin 1) u)
      = (V c main_v4 : S64x1x1024.Idx → Elt Ideal .f32) (ix3 b (0 : Fin 1) u) := by
  obtain ⟨-, -, -, -, -, -, e0, e1, e2, -⟩ := idx_facts t
  unfold iblk0
  rw [View.read_apply]
  show V c main_v4 _ = V c main_v4 _
  refine congrArg (V c main_v4) (funext fun a => Fin.ext ?_)
  match a with
  | ⟨0, _⟩ => show win0_3.index t (0 : Fin 3) * 1 + 1 * 0 = b.val; rw [e0, hb]; omega
  | ⟨1, _⟩ => show win0_3.index t (1 : Fin 3) * 1 + 1 * 0 = 0; rw [e1]
  | ⟨2, _⟩ => show win0_3.index t (2 : Fin 3) * 1024 + 1 * u.val = u.val; rw [e2]; omega

theorem outWeights_read (c : Dev nD) (t : Fin cfg0.N) (u : Fin 1024) :
    (iblk0 V c 4 t : Vec Ideal S1024x1 .f32) (ix2 u (0 : Fin 1)) = (V c main_arg6 : S1024x1.Idx → Elt Ideal .f32) (ix2 u (0 : Fin 1)) := by
  obtain ⟨-, -, -, -, -, -, -, -, -, e0, e1, -⟩ := idx_facts t
  unfold iblk0
  rw [View.read_apply]
  show V c main_arg6 _ = V c main_arg6 _
  refine congrArg (V c main_arg6) (funext fun a => Fin.ext ?_)
  match a with
  | ⟨0, _⟩ => show win0_4.index t (0 : Fin 2) * 1024 + 1 * u.val = u.val; rw [e0]; omega
  | ⟨1, _⟩ => show win0_4.index t (1 : Fin 2) * 1 + 1 * 0 = 0; rw [e1]

theorem outBias_read (c : Dev nD) (t : Fin cfg0.N) :
    (iblk0 V c 5 t : Vec Ideal S1 .f32) (ix1 (0 : Fin 1)) = (V c main_arg7 : S1.Idx → Elt Ideal .f32) (ix1 (0 : Fin 1)) := by
  obtain ⟨-, -, -, -, -, -, -, -, -, -, -, e0, -⟩ := idx_facts t
  unfold iblk0
  rw [View.read_apply]
  show V c main_arg7 _ = V c main_arg7 _
  refine congrArg (V c main_arg7) (funext fun a => Fin.ext ?_)
  match a with
  | ⟨0, _⟩ => show win0_5.index t (0 : Fin 1) * 1 + 1 * 0 = 0; rw [e0]

/-! ## What a launch writes back -/

/-- The logits of the arrays as the grid finds them. -/
abbrev G (c : Dev nD) : FVec Ideal ⟨3, ![64, 1024, 1]⟩ .f32 :=
  logits (V c main_arg0) (V c main_arg2) (V c main_arg3) (V c main_v4) (V c main_arg6) (V c main_arg7)

/-- Launch t writes back block t of the logits. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz3]
  simp only [View.ld_unit_zero (S := S1x1024x1024) hz3, View.ld_unit_zero (S := S1024x1024) hz2,
    View.ld_unit_zero (S := S1024) hz1, View.ld_unit_zero (S := S1x1x1024) hz3, View.ld_unit_zero (S := S1024x1) hz2,
    View.ld_unit_zero (S := S1) hz1]
  have ht : t.val < 64 := by have h := t.isLt; have hN : cfg0.N = 64 := N_0; omega
  obtain ⟨-, -, -, -, -, -, -, -, -, -, -, -, e0, e1, e2⟩ := idx_facts t
  funext j
  obtain ⟨z0, s, z2, rfl⟩ : ∃ (z0 : Fin 1) (s : Fin 1024) (z2 : Fin 1), j = ix3 z0 s z2 :=
    ⟨j 0, j 1, j 2, eq_ix3 (n0 := 1) (n1 := 1024) (n2 := 1) j⟩
  show k0_pay1 (iblk0 V c 0 t) (iblk0 V c 1 t) (iblk0 V c 2 t) (iblk0 V c 3 t) (iblk0 V c 4 t) (iblk0 V c 5 t) (ix3 z0 s z2)
    = G V c (((cfg0.win 6).blk t).view.emb (ix3 z0 s z2))
  have he : ((cfg0.win 6).blk t).view.emb (ix3 z0 s z2) = ix3 (⟨t.val, ht⟩ : Fin 64) s z2 := by
    funext a; apply Fin.ext
    match a with
    | ⟨0, _⟩ => show win0_6.index t (0 : Fin 3) * 1 + 1 * z0.val = t.val; rw [e0]; have := z0.isLt; omega
    | ⟨1, _⟩ => show win0_6.index t (1 : Fin 3) * 1024 + 1 * s.val = s.val; rw [e1]; omega
    | ⟨2, _⟩ => show win0_6.index t (2 : Fin 3) * 1 + 1 * z2.val = z2.val; rw [e2]; omega
  rw [he]
  unfold G
  rw [logits_ix3]
  refine (LogitsBlock.stored_apply (iblk0 V c 0 t) (iblk0 V c 1 t) (iblk0 V c 2 t) (iblk0 V c 3 t) (iblk0 V c 4 t)
    (iblk0 V c 5 t) z0 s z2).trans ?_
  unfold logitAt
  simp only [features_read V c t ⟨t.val, ht⟩ rfl, weights_read V c t, bias_read V c t, hidden_read V c t ⟨t.val, ht⟩ rfl,
    outWeights_read V c t, outBias_read V c t]

/-! ## The array after the grid -/

/-- An index of the output array is in launch t's block iff each coordinate is in the block's range on its axis. -/
theorem mem_blk (t : Fin cfg0.N) (i : S64x1024x1.Idx) :
    i ∈ ((cfg0.win 6).blk t).view.set ↔ ∀ a : Fin 3, win0_6.index t a * S1x1024x1.size a ≤ (i a).val ∧ (i a).val < win0_6.index t a * S1x1024x1.size a + S1x1024x1.size a := by
  show i ∈ ((View.whole main_v5).slice (win0_6.rect t)).set ↔ _
  rw [View.set_slice_whole, Rect.mem_set_unit]
  exact Iff.rfl

/-- After the 64 launches the output array holds the logits of the arrays as entered: block b covers sequence b. -/
theorem final (c : Dev nD) : (dat0 V c).arrAt 6 cfg0.N = G V c :=
  (dat0 V c).arrAt_eq_of_cover 6 (G V c) (fun t _ => flushed_eq V c t) fun i => by
    have hi0 : (i 0).val < 64 := (i 0).isLt
    have hi1 : (i 1).val < 1024 := (i 1).isLt
    have hi2 : (i 2).val < 1 := (i 2).isLt
    have hN : cfg0.N = 64 := N_0
    obtain ⟨t0, ht0⟩ : ∃ t0 : Fin cfg0.N, t0.val = (i 0).val := ⟨⟨(i 0).val, by rw [hN]; exact hi0⟩, rfl⟩
    refine ⟨t0, flush0_6 _, ?_⟩
    rw [mem_blk]
    obtain ⟨-, -, -, -, -, -, -, -, -, -, -, -, e0, e1, e2⟩ := idx_facts t0
    intro a
    match a with
    | ⟨0, _⟩ => show win0_6.index t0 (0 : Fin 3) * 1 ≤ (i 0).val ∧ (i 0).val < win0_6.index t0 (0 : Fin 3) * 1 + 1; rw [e0, ht0]; omega
    | ⟨1, _⟩ => show win0_6.index t0 (1 : Fin 3) * 1024 ≤ (i 1).val ∧ (i 1).val < win0_6.index t0 (1 : Fin 3) * 1024 + 1024; rw [e1]; omega
    | ⟨2, _⟩ => show win0_6.index t0 (2 : Fin 3) * 1 ≤ (i 2).val ∧ (i 2).val < win0_6.index t0 (2 : Fin 3) * 1 + 1; rw [e2]; omega

end Cert.KernelIdeal.LogitsArray

end
-- ==== Proof.ContextBlock.lean ====
/-
  What one launch of the second kernel stores, read at an index.

  The body takes one sequence's feature block x0 [1,1024,1024] and that sequence's attention weights x1 [1,1024,1] and
  stores a [1,1,1024] block: at feature f the sum over the rows s of x0[0,s,f] · x1[0,s,0]. The weights are broadcast
  across the feature axis, the casts only rename the index, and the reduction along the row axis is the sum over it.
-/
import proofs.«173991_j28879360098342_1_alg».proof.Proof.Gen.KernelIdeal.Skeleton
import proofs.«173991_j28879360098342_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ContextBlock

open Cert.KernelIdeal Cert.KernelIdeal.Gen
open Idealize.ShloMosaic Idealize.ShloMosaic.TcCoe Idealize.ShloMosaic.ValueIdx
open Idealize.ShloMosaic.ColumnLayout

/-- The reduction of a [1024, 1024] block along its first axis, from the zero word, at column f: the sum over the rows. -/
theorem columnSum_apply (v : FVec Ideal S1024x1024 .f32) (hφ : FKind.Formats .f32)
    (hacc : (0x00000000#32 : BitVec 32) = 0x00000000#32) (f : Fin 1024) :
    multiReduction .add [0] S1024 v 0x00000000#32 reduces_S1024x1024_S1024_2 hφ hacc (ix1 f) = ∑ s : Fin 1024, v (ix2 s f) := by
  refine (Ideal.multiReduction_add_single v 0x00000000#32 reduces_S1024x1024_S1024_2 hφ hacc (ix1 f)).trans ?_
  refine Finset.sum_congr rfl fun s _ => congrArg v ?_
  exact funext fun a => Fin.ext (by match a with | ⟨0, _⟩ => rfl | ⟨1, _⟩ => rfl)

/-- The stored block at feature f. -/
theorem stored_apply (x0 : Vec Ideal S1x1024x1024 .f32) (x1 : Vec Ideal S1x1024x1 .f32) (z0 z1 : Fin 1) (f : Fin 1024) :
    k1_pay1 x0 x1 (ix3 z0 z1 f) = ∑ s : Fin 1024, x0 (ix3 (0 : Fin 1) s f) * x1 (ix3 (0 : Fin 1) s (0 : Fin 1)) := by
  unfold k1_pay1
  dsimp only
  rw [shapeCast_ab_1ab_apply, shapeCast_a_1a_apply]
  refine (columnSum_apply _ _ _ f).trans (Finset.sum_congr rfl fun s _ => ?_)
  rw [mulf_apply, shapeCast_1ab_ab_apply, broadcastTo_a1_ab_apply, shapeCast_1ab_ab_apply]

end Cert.KernelIdeal.ContextBlock

end
-- ==== Proof.ContextArray.lean ====
/-
  The context array after the second grid of launches, for any buffer contents `V` the grid is entered with.

  Launch t (one per sequence, 64 in all) reads block t of the features and of the attention weights and writes block t of
  the output array: [t, 0, 0..1023]. What it writes is the specification's context of sequence t at each feature. The 64
  blocks tile the output array, so after the grid the array is the specification's context, one row per sequence, of the
  arrays as entered.
-/
import proofs.«173991_j28879360098342_1_alg».proof.Proof.Gen.KernelIdeal.Frame
import proofs.«173991_j28879360098342_1_alg».proof.Proof.Spec
import proofs.«173991_j28879360098342_1_alg».proof.Proof.ContextBlock
import Idealize.ShloMosaic.Lib.Pipeline.Value
import Idealize.ShloMosaic.Lib.ValueIdx

noncomputable section

namespace Cert.KernelIdeal.ContextArray

open Cert.KernelIdeal Cert.KernelIdeal.Gen Cert.Attention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The block index of every window at every launch, decided over the 64 launches: all three windows move with the launch
    along the first axis. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-! ## Each input block read in its array -/

theorem features_read (c : Dev nD) (t : Fin cfg1.N) (b : Fin 64) (hb : b.val = t.val) (s f : Fin 1024) :
    (iblk1 V c 0 t : Vec Ideal S1x1024x1024 .f32) (ix3 (0 : Fin 1) s f)
      = (V c main_arg0 : S64x1024x1024.Idx → Elt Ideal .f32) (ix3 b s f) := by
  obtain ⟨e0, e1, e2, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 1 + 1 * 0 = b.val; rw [e0, hb]; omega
  | ⟨1, _⟩ => show win1_0.index t (1 : Fin 3) * 1024 + 1 * s.val = s.val; rw [e1]; omega
  | ⟨2, _⟩ => show win1_0.index t (2 : Fin 3) * 1024 + 1 * f.val = f.val; rw [e2]; omega

theorem weights_read (c : Dev nD) (t : Fin cfg1.N) (b : Fin 64) (hb : b.val = t.val) (s : Fin 1024) :
    (iblk1 V c 1 t : Vec Ideal S1x1024x1 .f32) (ix3 (0 : Fin 1) s (0 : Fin 1))
      = (V c main_v16 : S64x1024x1.Idx → Elt Ideal .f32) (ix3 b s (0 : Fin 1)) := by
  obtain ⟨-, -, -, e0, e1, e2, -⟩ := idx_facts t
  unfold iblk1
  rw [View.read_apply]
  show V c main_v16 _ = V c main_v16 _
  refine congrArg (V c main_v16) (funext fun a => Fin.ext ?_)
  match a with
  | ⟨0, _⟩ => show win1_1.index t (0 : Fin 3) * 1 + 1 * 0 = b.val; rw [e0, hb]; omega
  | ⟨1, _⟩ => show win1_1.index t (1 : Fin 3) * 1024 + 1 * s.val = s.val; rw [e1]; omega
  | ⟨2, _⟩ => show win1_1.index t (2 : Fin 3) * 1 + 1 * 0 = 0; rw [e2]

/-! ## What a launch writes back -/

/-- The context, one row per sequence, of the arrays as the grid finds them. -/
abbrev G (c : Dev nD) : FVec Ideal ⟨3, ![64, 1, 1024]⟩ .f32 := contextRows (V c main_arg0) (V c main_v16)

/-- Launch t writes back block t of the context. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz3]
  simp only [View.ld_unit_zero (S := S1x1024x1024) hz3, View.ld_unit_zero (S := S1x1024x1) hz3]
  have ht : t.val < 64 := by have h := t.isLt; have hN : cfg1.N = 64 := N_1; omega
  obtain ⟨-, -, -, -, -, -, e0, e1, e2⟩ := idx_facts t
  funext j
  obtain ⟨z0, z1, f, rfl⟩ : ∃ (z0 : Fin 1) (z1 : Fin 1) (f : Fin 1024), j = ix3 z0 z1 f :=
    ⟨j 0, j 1, j 2, eq_ix3 (n0 := 1) (n1 := 1) (n2 := 1024) j⟩
  show k1_pay1 (iblk1 V c 0 t) (iblk1 V c 1 t) (ix3 z0 z1 f) = G V c (((cfg1.win 2).blk t).view.emb (ix3 z0 z1 f))
  have he : ((cfg1.win 2).blk t).view.emb (ix3 z0 z1 f) = ix3 (⟨t.val, ht⟩ : Fin 64) z1 f := by
    funext a; apply Fin.ext
    match a with
    | ⟨0, _⟩ => show win1_2.index t (0 : Fin 3) * 1 + 1 * z0.val = t.val; rw [e0]; have := z0.isLt; omega
    | ⟨1, _⟩ => show win1_2.index t (1 : Fin 3) * 1 + 1 * z1.val = z1.val; rw [e1]; omega
    | ⟨2, _⟩ => show win1_2.index t (2 : Fin 3) * 1024 + 1 * f.val = f.val; rw [e2]; omega
  rw [he]
  unfold G
  rw [contextRows_ix3]
  refine (ContextBlock.stored_apply (iblk1 V c 0 t) (iblk1 V c 1 t) z0 z1 f).trans ?_
  unfold contextAt
  simp only [features_read V c t ⟨t.val, ht⟩ rfl, weights_read V c t ⟨t.val, ht⟩ rfl]

/-! ## The array after the grid -/

/-- An index of the output array is in launch t's block iff each coordinate is in the block's range on its axis. -/
theorem mem_blk (t : Fin cfg1.N) (i : S64x1x1024.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v17).slice (win1_2.rect t)).set ↔ _
  rw [View.set_slice_whole, Rect.mem_set_unit]
  exact Iff.rfl

/-- After the 64 launches the output array holds the context of the arrays as entered: block b covers sequence b. -/
theorem final (c : Dev nD) : (dat1 V c).arrAt 2 cfg1.N = G V c :=
  (dat1 V c).arrAt_eq_of_cover 2 (G V c) (fun t _ => flushed_eq V c t) fun i => by
    have hi0 : (i 0).val < 64 := (i 0).isLt
    have hi1 : (i 1).val < 1 := (i 1).isLt
    have hi2 : (i 2).val < 1024 := (i 2).isLt
    have hN : cfg1.N = 64 := N_1
    obtain ⟨t0, ht0⟩ : ∃ t0 : Fin cfg1.N, t0.val = (i 0).val := ⟨⟨(i 0).val, by rw [hN]; exact hi0⟩, rfl⟩
    refine ⟨t0, flush1_2 _, ?_⟩
    rw [mem_blk]
    obtain ⟨-, -, -, -, -, -, e0, e1, e2⟩ := idx_facts t0
    intro a
    match a with
    | ⟨0, _⟩ => show win1_2.index t0 (0 : Fin 3) * 1 ≤ (i 0).val ∧ (i 0).val < win1_2.index t0 (0 : Fin 3) * 1 + 1; rw [e0, ht0]; omega
    | ⟨1, _⟩ => show win1_2.index t0 (1 : Fin 3) * 1 ≤ (i 1).val ∧ (i 1).val < win1_2.index t0 (1 : Fin 3) * 1 + 1; rw [e1]; omega
    | ⟨2, _⟩ => show win1_2.index t0 (2 : Fin 3) * 1024 ≤ (i 2).val ∧ (i 2).val < win1_2.index t0 (2 : Fin 3) * 1024 + 1024; rw [e2]; omega

end Cert.KernelIdeal.ContextArray

end
-- ==== Proof.LibUnitAxisLayout.lean ====
/-
  A matrix `[a, b]` given a middle unit axis, `[a, 1, b]`, read at an index given by its coordinates: the row-major
  position is unchanged, because the new axis contributes a factor one and a coordinate zero. (The cast that drops such an
  axis, and the leading-unit-axis casts, are stated elsewhere; this is the form a host reshape of a projected hidden state
  to one row per sequence needs.)
-/
import Idealize.ShloMosaic.Lib.Pipeline.Value
import Idealize.ShloMosaic.Lib.ValueIdx

noncomputable section

namespace Idealize.ShloMosaic.UnitAxisLayout

open Idealize.ShloMosaic Idealize.ShloMosaic.ValueIdx

variable {α : Type}

/-- An `[a, b]` matrix cast to an `[a, 1, b]` stack reads, at `(i, u, j)`, the matrix at `(i, j)`, whatever the unit
    coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.UnitAxisLayout

end
-- ==== Proof.KernelValue.lean ====
/-
  The idealized kernel program's two results as functions of its arguments.

  The buffer contents at the segment boundaries are followed from the launch memory to the end:
   * before the first grid the arguments are as launched and the hidden-row buffer holds the projected hidden state, one
     row per sequence (the host's matrix product plus bias, reshaped);
   * the first grid leaves the specification's logits of those arrays in its output buffer;
   * the host stretch between the grids applies the softmax chain to that buffer and writes the attention weights;
   * the second grid leaves the specification's context (one row per sequence) of the features and those weights, and
     does not change the weights;
   * the last reshape drops the middle unit axis.
  So the attention weights end at the softmax of the logits and the context at the specification's context of the
  features and those weights.
-/
import proofs.«173991_j28879360098342_1_alg».proof.Proof.Gen.KernelIdeal.Frame
import proofs.«173991_j28879360098342_1_alg».proof.Proof.Gen.ReferenceIdeal.Read
import proofs.«173991_j28879360098342_1_alg».proof.Proof.Spec
import proofs.«173991_j28879360098342_1_alg».proof.Proof.LogitsArray
import proofs.«173991_j28879360098342_1_alg».proof.Proof.ContextArray
import proofs.«173991_j28879360098342_1_alg».proof.Proof.LibUnitAxisLayout
import proofs.«173991_j28879360098342_1_alg».proof.Proof.LibInnerUnitAxis
import Idealize.ShloMosaic.Lib.Pipeline.Value
import Idealize.ShloMosaic.Lib.ValueIdx
import Idealize.ShloMosaic.Lib.StableHlo.Run

noncomputable section

namespace Cert.KernelIdeal.Value

open Cert.KernelIdeal Cert.KernelIdeal.Gen Cert.Attention
open Idealize.ShloMosaic Idealize.ShloMosaic.TcCoe Idealize.ShloMosaic.ValueIdx Idealize.SL.Sem Idealize.ShloMosaic.StableHlo
open Idealize.ShloMosaic.Pipeline (Dat)
open Idealize.ShloMosaic.UnitAxisLayout Idealize.ShloMosaic.InnerUnitAxis

variable (m : (ℓ : Loc nD τ sig) → Buf (Elt Ideal) ℓ) (ρ : Dev nD → PrngReg)

/-! ## Before the first grid -/

theorem V1_features (c : Dev nD) : V1 m ρ c main_arg0 = m ((c : Thread nD τ).loc main_arg0) := by
  show StableHlo.after hostOps0 (W0 m ρ c) (Proc.devRef .tc main_arg0) = _
  after_results
theorem V1_weights (c : Dev nD) : V1 m ρ c main_arg2 = m ((c : Thread nD τ).loc main_arg2) := by
  show StableHlo.after hostOps0 (W0 m ρ c) (Proc.devRef .tc main_arg2) = _
  after_results
theorem V1_bias (c : Dev nD) : V1 m ρ c main_arg3 = m ((c : Thread nD τ).loc main_arg3) := by
  show StableHlo.after hostOps0 (W0 m ρ c) (Proc.devRef .tc main_arg3) = _
  after_results
theorem V1_outWeights (c : Dev nD) : V1 m ρ c main_arg6 = m ((c : Thread nD τ).loc main_arg6) := by
  show StableHlo.after hostOps0 (W0 m ρ c) (Proc.devRef .tc main_arg6) = _
  after_results
theorem V1_outBias (c : Dev nD) : V1 m ρ c main_arg7 = m ((c : Thread nD τ).loc main_arg7) := by
  show StableHlo.after hostOps0 (W0 m ρ c) (Proc.devRef .tc main_arg7) = _
  after_results

/-- The projected hidden state, one row per sequence: the function the reference broadcasts, here reshaped. -/
abbrev hiddenRows (c : Dev nD) : FVec Ideal ⟨3, ![64, 1, 1024]⟩ .f32 :=
  Cert.ReferenceIdeal.Read.val_main_v8 (F := Ideal) (m ((c : Thread nD τ).loc main_arg1)) (m ((c : Thread nD τ).loc main_arg4))
    (m ((c : Thread nD τ).loc main_arg5))

theorem V1_hidden_term (c : Dev nD) : V1 m ρ c main_v4
    = fun i => shapeCast S64x1x1024 (Cert.ReferenceIdeal.Read.val_main_v7 (F := Ideal) (m ((c : Thread nD τ).loc main_arg1))
        (m ((c : Thread nD τ).loc main_arg4)) (m ((c : Thread nD τ).loc main_arg5))) shapeCasts_S64x1024_S64x1x1024 i := by
  show StableHlo.after hostOps0 (W0 m ρ c) (Proc.devRef .tc main_v4) = _
  after_results
  rfl

/-- The hidden-row buffer holds the projected hidden state, one row per sequence. -/
theorem V1_hidden (c : Dev nD) : V1 m ρ c main_v4 = hiddenRows m c := by
  rw [V1_hidden_term]
  refine funext fun (i : S64x1x1024.Idx) => ?_
  obtain ⟨b, z, u, rfl⟩ : ∃ (b : Fin 64) (z : Fin 1) (u : Fin 1024), i = ix3 b z u := ⟨i 0, i 1, i 2, eq_ix3 i⟩
  show shapeCast S64x1x1024 _ shapeCasts_S64x1024_S64x1x1024 (ix3 b z u) = Cert.ReferenceIdeal.Read.val_main_v8 (F := Ideal) _ _ _ (ix3 b z u)
  rw [shapeCast_ab_a1b_apply, Cert.ReferenceIdeal.Read.val_main_v8_apply]
  exact congrArg _ (funext fun a => Fin.ext (by match a with | ⟨0, _⟩ => rfl | ⟨1, _⟩ => rfl))

/-! ## After the first grid -/

/-- The logits of the launch arguments. -/
abbrev logitsOf (c : Dev nD) : FVec Ideal ⟨3, ![64, 1024, 1]⟩ .f32 :=
  logits (m ((c : Thread nD τ).loc main_arg0)) (m ((c : Thread nD τ).loc main_arg2)) (m ((c : Thread nD τ).loc main_arg3))
    (hiddenRows m c) (m ((c : Thread nD τ).loc main_arg6)) (m ((c : Thread nD τ).loc main_arg7))

theorem W2_logits (c : Dev nD) : W2 m ρ c (Proc.devRef .tc main_v5) = logitsOf m c := by
  refine (W2_arr m ρ c 6).trans ((LogitsArray.final (V1 m ρ) c).trans ?_)
  unfold LogitsArray.G
  rw [V1_features, V1_weights, V1_bias, V1_hidden, V1_outWeights, V1_outBias]

/-! ## Between the grids -/

/-- The attention weights of the launch arguments. -/
abbrev weightsOf (c : Dev nD) : FVec Ideal ⟨3, ![64, 1024, 1]⟩ .f32 :=
  softmaxRows Facts₀.reducesTo_S64x1024x1_S64x1_d1 Facts₀.h_S_ Facts₀.bcast_S_S64x1 Facts₀.bcast_S64x1_S64x1x1_0_2
    Facts₀.bcast_S64x1x1_S64x1024x1_0_1_2 (logitsOf m c)

theorem W3_weights_term (c : Dev nD) : W3 m ρ c (Proc.devRef .tc main_v16)
    = softmaxRows Facts₀.reducesTo_S64x1024x1_S64x1_d1 Facts₀.h_S_ Facts₀.bcast_S_S64x1 Facts₀.bcast_S64x1_S64x1x1_0_2
        Facts₀.bcast_S64x1x1_S64x1024x1_0_1_2 (W2 m ρ c (Proc.devRef .tc main_v5)) := by
  show StableHlo.after hostOps1 (W2 m ρ c) (Proc.devRef .tc main_v16) = _
  after_results
  rfl

theorem V3_weights (c : Dev nD) : V3 m ρ c main_v16 = weightsOf m c :=
  (W3_weights_term m ρ c).trans (congrArg _ (W2_logits m ρ c))

theorem V3_features (c : Dev nD) : V3 m ρ c main_arg0 = m ((c : Thread nD τ).loc main_arg0) := by
  have h1 : W3 m ρ c (Proc.devRef .tc main_arg0) = W2 m ρ c (Proc.devRef .tc main_arg0) := by
    show StableHlo.after hostOps1 (W2 m ρ c) (Proc.devRef .tc main_arg0) = _
    after_results
  have h2 : W2 m ρ c (Proc.devRef .tc main_arg0) = W1 m ρ c (Proc.devRef .tc main_arg0) :=
    (W2_arr m ρ c 0).trans (((dat0 (V1 m ρ) c).arrAt_in 0 rfl _).trans (A_eq0 (V1 m ρ) c 0))
  exact h1.trans (h2.trans (V1_features m ρ c))

/-! ## After the second grid -/

theorem W4_context (c : Dev nD) : W4 m ρ c (Proc.devRef .tc main_v17)
    = contextRows (m ((c : Thread nD τ).loc main_arg0)) (weightsOf m c) := by
  refine (W4_arr m ρ c 2).trans ((ContextArray.final (V3 m ρ) c).trans ?_)
  unfold ContextArray.G
  rw [V3_features, V3_weights]

theorem W4_weights (c : Dev nD) : W4 m ρ c (Proc.devRef .tc main_v16) = weightsOf m c :=
  (W4_arr m ρ c 1).trans ((((dat1 (V3 m ρ) c).arrAt_in 1 rfl _).trans (A_eq1 (V3 m ρ) c 1)).trans (V3_weights m ρ c))

/-! ## At the end -/

/-- The attention-weight buffer ends at the softmax of the logits. -/
theorem weights_value (c : Dev nD) : W5 m ρ c (Proc.devRef .tc main_v16) = weightsOf m c := by
  have h : W5 m ρ c (Proc.devRef .tc main_v16) = W4 m ρ c (Proc.devRef .tc main_v16) := by
    show StableHlo.after hostOps2 (W4 m ρ c) (Proc.devRef .tc main_v16) = _
    after_results
  exact h.trans (W4_weights m ρ c)

/-- The context buffer ends at the context of the features and those weights. -/
theorem context_value (c : Dev nD) : W5 m ρ c (Proc.devRef .tc main_v18)
    = context (m ((c : Thread nD τ).loc main_arg0)) (weightsOf m c) := by
  have h : W5 m ρ c (Proc.devRef .tc main_v18)
      = fun i => shapeCast S64x1024 (W4 m ρ c (Proc.devRef .tc main_v17)) shapeCasts_S64x1x1024_S64x1024 i := by
    show StableHlo.after hostOps2 (W4 m ρ c) (Proc.devRef .tc main_v18) = _
    after_results
    rfl
  rw [h, W4_context]
  refine funext fun (i : S64x1024.Idx) => ?_
  obtain ⟨b, f, rfl⟩ : ∃ (b : Fin 64) (f : Fin 1024), i = ix2 b f := ⟨i 0, i 1, eq_ix2 i⟩
  show shapeCast S64x1024 (contextRows _ _) shapeCasts_S64x1x1024_S64x1024 (ix2 b f) = context _ _ (ix2 b f)
  rw [shapeCast_a1b_ab_apply, contextRows_ix3, context_ix2]

end Cert.KernelIdeal.Value

end
-- ==== Proof.RefLogits.lean ====
/-
  The reference program, read stage by stage, is the specification's three functions.

  Its logits are the batched matrix product of the features with W1 plus the two biases, through tanh, contracted with v,
  plus the output bias: index by index that is `Attention.logits` of the arguments and of the projected hidden state
  broadcast to one row per sequence. Its attention weights are the softmax chain applied to those logits. Its context is
  the weights broadcast across the feature axis, multiplied into the features and summed over the rows: the product
  commutes, and the sum from the zero initial value is the sum.
-/
import proofs.«173991_j28879360098342_1_alg».proof.Proof.Gen.ReferenceIdeal.Read
import proofs.«173991_j28879360098342_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attention
open Idealize.ShloMosaic Idealize.ShloMosaic.TcCoe Idealize.ShloMosaic.ValueIdx

/-! ## The operand indices of each stage, by coordinates -/

theorem lidx12_eq (b : Fin 64) (s : Fin 1024) (z : Fin 1) (k : Fin 1024) : lidx_main_v12 (ix3 b s z) k = ix3 b s k :=
  funext fun a => Fin.ext (by match a with | ⟨0, _⟩ => rfl | ⟨1, _⟩ => rfl | ⟨2, _⟩ => rfl)
theorem ridx12_eq (b : Fin 64) (s : Fin 1024) (k : Fin 1024) : ridx_main_v12 (ix3 b s (0 : Fin 1)) k = ix2 k (0 : Fin 1) :=
  funext fun a => Fin.ext (by match a with | ⟨0, _⟩ => rfl | ⟨1, _⟩ => rfl)
theorem lidx0_eq (b : Fin 64) (s : Fin 1024) (u : Fin 1024) (k : Fin 1024) : lidx_main_v0 (ix3 b s u) k = ix3 b s k :=
  funext fun a => Fin.ext (by match a with | ⟨0, _⟩ => rfl | ⟨1, _⟩ => rfl | ⟨2, _⟩ => rfl)
theorem ridx0_eq (b : Fin 64) (s : Fin 1024) (u : Fin 1024) (k : Fin 1024) : ridx_main_v0 (ix3 b s u) k = ix2 k u :=
  funext fun a => Fin.ext (by match a with | ⟨0, _⟩ => rfl | ⟨1, _⟩ => rfl)
theorem idx2_eq (b : Fin 64) (s : Fin 1024) (u : Fin 1024) : idx_main_v1 (idx_main_v2 (ix3 b s u)) = ix1 u :=
  funext fun a => Fin.ext (by match a with | ⟨0, _⟩ => rfl)
theorem idx9_eq (b : Fin 64) (s : Fin 1024) (u : Fin 1024) : idx_main_v9 (ix3 b s u) = ix3 b (0 : Fin 1) u :=
  funext fun a => Fin.ext (by match a with | ⟨0, _⟩ => rfl | ⟨1, _⟩ => rfl | ⟨2, _⟩ => rfl)
theorem idx14_eq (b : Fin 64) (s : Fin 1024) (z : Fin 1) : idx_main_v13 (idx_main_v14 (ix3 b s z)) = ix1 (0 : Fin 1) :=
  funext fun a => Fin.ext (by match a with | ⟨0, _⟩ => rfl)

/-! ## The logits -/

/-- The reference's logits are the specification's, at the projected hidden state broadcast to one row per sequence. -/
theorem logits_eq (x0 : (⟨S64x1024x1024, .f32⟩ : BufTy).Contents (Elt Ideal)) (x1 : (⟨S64x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) :
    val_main_v15 (F := Ideal) x0 x1 x2 x3 x4 x5 x6 x7 = logits x0 x2 x3 (val_main_v8 (F := Ideal) x1 x4 x5) x6 x7 := by
  funext i
  obtain ⟨b, s, z, rfl⟩ : ∃ (b : Fin 64) (s : Fin 1024) (z : Fin 1), i = ix3 b s z := ⟨i 0, i 1, i 2, eq_ix3 i⟩
  obtain rfl : z = 0 := Subsingleton.elim _ _
  rw [logits_ix3, val_main_v15_apply, val_main_v12_apply, val_main_v14_apply, val_main_v13_apply, idx14_eq]
  unfold logitAt
  simp only [val_main_v11_apply, val_main_v10_apply, val_main_v3_apply, val_main_v0_apply, val_main_v2_apply,
    val_main_v1_apply, val_main_v9_apply, lidx12_eq, ridx12_eq, lidx0_eq, ridx0_eq, idx2_eq, idx9_eq,
    Ideal.addf_def, Ideal.hostUnary_tanh_def]

end Cert.ReferenceIdeal.RefValue

end
-- ==== Proof.RefContext.lean ====
/-
  The reference program's attention weights and context, read stage by stage.

  The weights are the softmax chain applied to the logits: the stages between the logits and the weights are exactly that
  chain's operations. The context at (b, f) is the zero initial value plus the sum over the rows s of the weight (b, s)
  times the feature (b, s, f); adding zero changes nothing and the product commutes, so it is the specification's context.
-/
import proofs.«173991_j28879360098342_1_alg».proof.Proof.Gen.ReferenceIdeal.Read
import proofs.«173991_j28879360098342_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attention
open Idealize.ShloMosaic Idealize.ShloMosaic.TcCoe Idealize.ShloMosaic.ValueIdx

/-- The reference's attention weights are the softmax chain of its logits. -/
theorem weights_eq (x0 : (⟨S64x1024x1024, .f32⟩ : BufTy).Contents (Elt Ideal)) (x1 : (⟨S64x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) :
    val_main_v26 (F := Ideal) x0 x1 x2 x3 x4 x5 x6 x7
      = softmaxRows Facts₀.reducesTo_S64x1024x1_S64x1_d1 Facts₀.h_S_ Facts₀.bcast_S_S64x1 Facts₀.bcast_S64x1_S64x1x1_0_2
          Facts₀.bcast_S64x1x1_S64x1024x1_0_1_2 (val_main_v15 (F := Ideal) x0 x1 x2 x3 x4 x5 x6 x7) := by
  unfold val_main_v26 val_main_v25 val_main_v24 val_main_v23 val_main_v22 val_main_v21 val_main_v20 val_main_v19
    val_main_v18 val_main_v17 val_main_v16 val_main_cst val_main_cst_0 val_main_cst_1 softmaxRows
  rfl

theorem idx29_eq (b : Fin 64) (f : Fin 1024) (k : Fin 1024) : idx_main_v29 (ix2 b f) k = ix3 b k f :=
  funext fun a => Fin.ext (by match a with | ⟨0, _⟩ => rfl | ⟨1, _⟩ => rfl | ⟨2, _⟩ => rfl)
theorem idx27_eq (b : Fin 64) (s : Fin 1024) (f : Fin 1024) : idx_main_v27 (ix3 b s f) = ix3 b s (0 : Fin 1) :=
  funext fun a => Fin.ext (by match a with | ⟨0, _⟩ => rfl | ⟨1, _⟩ => rfl | ⟨2, _⟩ => rfl)

/-- The reference's context is the specification's, at the reference's attention weights. -/
theorem context_eq (x0 : (⟨S64x1024x1024, .f32⟩ : BufTy).Contents (Elt Ideal)) (x1 : (⟨S64x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) :
    val_main_v29 (F := Ideal) x0 x1 x2 x3 x4 x5 x6 x7 = context x0 (val_main_v26 (F := Ideal) x0 x1 x2 x3 x4 x5 x6 x7) := by
  funext i
  obtain ⟨b, f, rfl⟩ : ∃ (b : Fin 64) (f : Fin 1024), i = ix2 b f := ⟨i 0, i 1, eq_ix2 i⟩
  rw [context_ix2, val_main_v29_apply, val_main_cst_2_apply]
  unfold contextAt
  simp only [val_main_v28_apply, val_main_v27_apply, idx29_eq, idx27_eq, Ideal.mulf_def, Ideal.ofBits_def,
    Ideal.ofBits_zero_f32, zero_add]
  exact Finset.sum_congr rfl fun s _ => mul_comm _ _

end Cert.ReferenceIdeal.RefValue

end
-- ==== Proof.lean ====
/-
  Additive attention: a two-kernel program against its plain reference, equal over the extended reals.

  Both programs compute, for 64 sequences of 1024 feature rows,
    logit (b, s) = ( Σ_u tanh( (Σ_f x[b,s,f] · W1[f,u]) + b1[u] + h[b,u] ) · v[u] ) + c,   h = hidden · W2 + b2,
    a = softmax of the logits along s,    context (b, f) = Σ_s x[b,s,f] · a[b,s].
  The kernel program forms the logits in a first grid of launches (one sequence per launch; the matrix product into a
  zero accumulator, the change of float format the identity at the extended reals), applies the softmax on the host, and
  forms the context in a second grid; the reference does all of it with array operations. The two differ only in how the
  sums are arranged, in the order of one product, and in zero initial values: commutativity and 0 + x = x, which hold at
  every extended real, so the precondition is not used.

  The frames of the two kernel programs and the run of the reference are the generated ones. The kernel program's run
  with its results named, the value of each grid's output array, the walk of the buffer contents through the program, and
  the reading of the reference's stages are in the modules imported below; here they are assembled into the claim.
-/
import proofs.«173991_j28879360098342_1_alg».proof.Defs
import proofs.«173991_j28879360098342_1_alg».proof.Proof.Gen.Kernel
import proofs.«173991_j28879360098342_1_alg».proof.Proof.Gen.Kernel.Skeleton
import proofs.«173991_j28879360098342_1_alg».proof.Proof.Gen.Kernel.Launch
import proofs.«173991_j28879360098342_1_alg».proof.Proof.Gen.Kernel.Points
import proofs.«173991_j28879360098342_1_alg».proof.Proof.Gen.Kernel.Frame
import proofs.«173991_j28879360098342_1_alg».proof.Proof.Gen.KernelIdeal
import proofs.«173991_j28879360098342_1_alg».proof.Proof.Gen.KernelIdeal.Skeleton
import proofs.«173991_j28879360098342_1_alg».proof.Proof.Gen.KernelIdeal.Launch
import proofs.«173991_j28879360098342_1_alg».proof.Proof.Gen.KernelIdeal.Points
import proofs.«173991_j28879360098342_1_alg».proof.Proof.Gen.KernelIdeal.Frame
import proofs.«173991_j28879360098342_1_alg».proof.Proof.Gen.ReferenceIdeal
import proofs.«173991_j28879360098342_1_alg».proof.Proof.Gen.ReferenceIdeal.Run
import proofs.«173991_j28879360098342_1_alg».proof.Proof.Gen.ReferenceIdeal.Read
import proofs.«173991_j28879360098342_1_alg».proof.Proof.Gen.Pre_finite_inputs
import proofs.«173991_j28879360098342_1_alg».proof.Proof.Spec
import proofs.«173991_j28879360098342_1_alg».proof.Proof.KernelRun
import proofs.«173991_j28879360098342_1_alg».proof.Proof.KernelValue
import proofs.«173991_j28879360098342_1_alg».proof.Proof.RefLogits
import proofs.«173991_j28879360098342_1_alg».proof.Proof.RefContext
import Idealize.ShloMosaic.Adequacy
import Idealize.ShloMosaic.Init

noncomputable section

namespace Cert.Proof

open Idealize.ShloMosaic Idealize.SL.Sem Cert.Attention

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to preserve. -/
theorem preserves : Cert.preserves_Kernel_KernelIdeal := trivial

/-- From memories agreeing on the arguments both programs end with the context at the specification's context of the
    features and the softmax of the specification's logits, and with the attention weights at that softmax. -/
theorem algebraic : Cert.algebraic_KernelIdeal_ReferenceIdeal := by
  intro m ρ m' ρ' _ hagree
  refine ⟨fun c => context (m ((c.tc : Thread Cert.KernelIdeal.nD Cert.KernelIdeal.τ).loc Cert.KernelIdeal.main_arg0))
      (Cert.KernelIdeal.Value.weightsOf m c), fun c => Cert.KernelIdeal.Value.weightsOf m c, ?_, ?_⟩
  · exact (θ_run Cert.KernelIdeal.defs _ _).mono (fun _ h c =>
      ⟨(h c).1.trans (Cert.KernelIdeal.Value.context_value m ρ c),
        (h c).2.1.trans (Cert.KernelIdeal.Value.weights_value m ρ c), (h c).2.2⟩)
      (Cert.KernelIdeal.Results.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7⟩ := hagree c
      rw [Cert.ReferenceIdeal.Read.val_main_v29_eq, Cert.ReferenceIdeal.RefValue.context_eq,
        Cert.ReferenceIdeal.RefValue.weights_eq, Cert.ReferenceIdeal.RefValue.logits_eq, h0, h1, h2, h3, h4, h5, h6, h7]
    · obtain ⟨h0, h1, h2, h3, h4, h5, h6, h7⟩ := hagree c
      rw [Cert.ReferenceIdeal.Read.val_main_v26_eq, Cert.ReferenceIdeal.RefValue.weights_eq,
        Cert.ReferenceIdeal.RefValue.logits_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
